-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S16x128 : Shape := ⟨2, ![16, 128]⟩
abbrev S8192x128 : Shape := ⟨2, ![8192, 128]⟩
abbrev S8x128 : Shape := ⟨2, ![8, 128]⟩
abbrev S1024x8x128 : Shape := ⟨3, ![1024, 8, 128]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1024x8x128 : S8192x128.ShapeCasts S1024x8x128
  reduces_S1024x8x128_S8x128 : S1024x8x128.Reduces [0] S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel

variable [Facts₀]

class Facts : Prop extends Facts₀ where

variable [Facts]
-- ==== Proof.Pieces.lean ====
/-
  What one run of the body leaves behind, in each of its three control cases, as values.

  The body always ends by storing  a + (this point's block sums)  into the whole [8, 128] accumulator, where a is
  what the accumulator held when the body read it:
    · first point of a half (reset taken): a is the zero block the reset has just stored;
    · a middle point: a is what the previous point left;
    · last point of a half: as a middle point, and the accumulator just stored is then read back and copied
      whole into the output block.
  Each store covers its whole buffer through zero offsets, so the buffer's final contents are the last store's payload,
  and a load of the whole buffer after such a store reads that payload.
-/
import proofs.«148963_j386547057265_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First point of a half: the accumulator ends at the zero block plus this point's block sums. -/
theorem scratch_first (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : cond0_0 i) (hc1 : ¬cond0_1 i)
    (x0 x1 : Vec F S8192x128 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S8192x128) hz,
    View.ld_unit_zero (S := S8x128) hz]

/-- A middle point: the accumulator ends at what it held plus this point's block sums. -/
theorem scratch_middle (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : ¬cond0_1 i)
    (x0 x1 : Vec F S8192x128 .f32) (xs0 : Vec F S8x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S8192x128) hz,
    View.ld_unit_zero (S := S8x128) hz]

/-- Last point of a half: the accumulator likewise … -/
theorem scratch_last (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec F S8192x128 .f32) (xs0 : Vec F S8x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S8192x128) hz,
    View.ld_unit_zero (S := S8x128) hz]

/-- … and the output block is the accumulator read back after that store. -/
theorem out_last (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec F S8192x128 .f32) (xs0 : Vec F S8x128 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S8x128) _ hz]
  simp only [View.readAt_eq_ld, h2.read_unread, h3.read_unread, h5.read_unread, View.ld_unit_zero (S := S8192x128) hz,
    View.ld_unit_zero (S := S8x128) hz]

end Cert.KernelIdeal.Pieces

end
-- ==== Proof.PointSum.lean ====
/-
  One grid point's arithmetic, read entry by entry on the extended reals.

  At a grid point the body holds two [8192, 128] blocks x, y and the [8, 128] accumulator a, and stores
      a + Σ_{k < 1024} d_k,      d = (x − y)·(x − y) viewed as [1024, 8, 128],
  so entry (s, l) of the stored block is  a(s, l) + Σ_k (x − y)²(8k + s, l):  the [8192, 128] → [1024, 8, 128]
  view keeps the row-major position, (k, s, l) ↦ row 8k + s, and the reduction runs over the leading axis.
  The block the reset stores is the zero block.
-/
import proofs.«148963_j386547057265_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Point

open Idealize.ShloMosaic Idealize.ShloMosaic.ValueIdx Cert.KernelIdeal Cert.KernelIdeal.Gen
open scoped BigOperators

/-- The reset stores zeros. -/
theorem pay1_apply (j : S8x128.Idx) : k0_pay1 (F := Ideal) j = 0 := by
  unfold k0_pay1
  simp only [shapeCast_self, broadcast_apply]
  exact Ideal.ofBits_zero_f32

/-- Row 8k + s of an [8192, 128] block. -/
abbrev row (k : Fin 1024) (s : Fin 8) : Fin 8192 := ⟨8 * k.val + s.val, by have := k.isLt; have := s.isLt; omega⟩

/-- Entry (s, l) of the block the accumulation stores: the accumulator's entry plus the 1024 squared differences
    at rows 8k + s of the two input blocks. -/
theorem pay2_apply (v3 v5 : Vec Ideal S8192x128 .f32) (v11 : Vec Ideal S8x128 .f32) (s : Fin 8) (l : Fin 128) :
    k0_pay2 (F := Ideal) v3 v5 v11 (ix2 s l)
      = v11 (ix2 s l) + ∑ k : Fin 1024,
          (v3 (ix2 (row k s) l) - v5 (ix2 (row k s) l)) * (v3 (ix2 (row k s) l) - v5 (ix2 (row k s) l)) := by
  unfold k0_pay2
  simp only [shapeCast_self]
  refine congrArg (fun z => v11 (ix2 s l) + z) ?_
  refine (Ideal.multiReduction_add_single _ 0x00000000#32 _ (.inl rfl) rfl (ix2 s l)).trans ?_
  refine Finset.sum_congr rfl fun k _ => ?_
  refine (shapeCast_apply _ _ _ (ix2 (row k s) l) ?_).trans rfl
  rw [Shape.rowMajor_val_two, Shape.rowMajor_val_three]
  show (8 * k.val + s.val) * 128 + l.val = (k.val * 8 + s.val) * 128 + l.val
  omega

end Cert.KernelIdeal.Point

end
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.SumLaw.lean ====
/-
  Regrouping the sum of 2^25 terms.  The flat index range 0 ≤ j < 33554432 is cut as
      j = 16777216·c + 1048576·i + 1024·k + 128·s + l      (c < 2, i < 16, k < 1024, s < 8, l < 128),
  that is, j = (R·128 + l) with row R = (16c + i)·8192 + 8k + s of a [262144, 128] matrix.  Summing first over k
  (the 1024 row groups of one 8192-row block), then over i (the 16 blocks of one half), and only then over the
  2048 pairs (r, l) = (8c + s, l) gives the same total as the plain sum over j: addition in a commutative
  monoid may be taken in any order and any grouping.  No property of the summands is used.
-/
import proofs.«148963_j386547057265_2_alg».proof.Proof.LibSumBlocks
import Mathlib.Algebra.BigOperators.Fin
import Mathlib.Tactic

namespace Cert.SumLaw

open scoped BigOperators
open Cert.SumBlocks

variable {M : Type*} [AddCommMonoid M]

theorem sum_2x16777216 (f : Fin 33554432 → M) :
    ∑ u, f u = ∑ c : Fin 2, ∑ r : Fin 16777216, f ⟨16777216 * c.val + r.val, by have := c.isLt; have := r.isLt; omega⟩ :=
  sum_blocks 2 16777216 f

theorem sum_16x1048576 (f : Fin 16777216 → M) :
    ∑ u, f u = ∑ i : Fin 16, ∑ r : Fin 1048576, f ⟨1048576 * i.val + r.val, by have := i.isLt; have := r.isLt; omega⟩ :=
  sum_blocks 16 1048576 f

theorem sum_1024x1024 (f : Fin 1048576 → M) :
    ∑ u, f u = ∑ k : Fin 1024, ∑ r : Fin 1024, f ⟨1024 * k.val + r.val, by have := k.isLt; have := r.isLt; omega⟩ :=
  sum_blocks 1024 1024 f

theorem sum_8x128 (f : Fin 1024 → M) :
    ∑ u, f u = ∑ s : Fin 8, ∑ l : Fin 128, f ⟨128 * s.val + l.val, by have := s.isLt; have := l.isLt; omega⟩ :=
  sum_blocks 8 128 f

theorem sum_2x8 (f : Fin 16 → M) :
    ∑ u, f u = ∑ c : Fin 2, ∑ s : Fin 8, f ⟨8 * c.val + s.val, by have := c.isLt; have := s.isLt; omega⟩ :=
  sum_blocks 2 8 f

/-- The plain sum over the flat range, cut along c, i, k, s, l. -/
theorem flat_split (h : ℕ → M) :
    ∑ j : Fin 33554432, h j.val
      = ∑ c : Fin 2, ∑ i : Fin 16, ∑ k : Fin 1024, ∑ s : Fin 8, ∑ l : Fin 128,
          h (16777216 * c.val + (1048576 * i.val + (1024 * k.val + (128 * s.val + l.val)))) := by
  rw [sum_2x16777216 (fun j => h j.val)]
  refine Finset.sum_congr rfl fun c _ => ?_
  rw [sum_16x1048576 (fun r => h (16777216 * c.val + r.val))]
  refine Finset.sum_congr rfl fun i _ => ?_
  rw [sum_1024x1024 (fun r => h (16777216 * c.val + (1048576 * i.val + r.val)))]
  refine Finset.sum_congr rfl fun k _ => ?_
  rw [sum_8x128 (fun r => h (16777216 * c.val + (1048576 * i.val + (1024 * k.val + r.val))))]

/-- The grouped sum: for each of the 16 × 128 accumulator entries (r, l), the 16 blocks i of the half r / 8, and in
    each block the 1024 row groups k, at sublane r % 8. -/
theorem regroup (h : ℕ → M) :
    ∑ r : Fin 16, ∑ l : Fin 128, ∑ i : Fin 16, ∑ k : Fin 1024,
        h ((((r.val / 8 * 16 + i.val) * 8192 + (8 * k.val + r.val % 8)) * 128) + l.val)
      = ∑ j : Fin 33554432, h j.val := by
  rw [flat_split h]
  rw [sum_2x8 (fun r => ∑ l : Fin 128, ∑ i : Fin 16, ∑ k : Fin 1024,
        h ((((r.val / 8 * 16 + i.val) * 8192 + (8 * k.val + r.val % 8)) * 128) + l.val))]
  refine Finset.sum_congr rfl fun c _ => ?_
  -- the index is the same number; then the four inner sums are exchanged into the order i, k, s, l
  have e : ∀ (s : Fin 8) (l : Fin 128) (i : Fin 16) (k : Fin 1024),
      (((8 * c.val + s.val) / 8 * 16 + i.val) * 8192 + (8 * k.val + (8 * c.val + s.val) % 8)) * 128 + l.val
        = 16777216 * c.val + (1048576 * i.val + (1024 * k.val + (128 * s.val + l.val))) := by
    intro s l i k
    have := s.isLt
    omega
  simp only [e]
  calc ∑ s : Fin 8, ∑ l : Fin 128, ∑ i : Fin 16, ∑ k : Fin 1024,
          h (16777216 * c.val + (1048576 * i.val + (1024 * k.val + (128 * s.val + l.val))))
      = ∑ s : Fin 8, ∑ i : Fin 16, ∑ l : Fin 128, ∑ k : Fin 1024,
          h (16777216 * c.val + (1048576 * i.val + (1024 * k.val + (128 * s.val + l.val)))) :=
        Finset.sum_congr rfl fun s _ => Finset.sum_comm
    _ = ∑ i : Fin 16, ∑ s : Fin 8, ∑ l : Fin 128, ∑ k : Fin 1024,
          h (16777216 * c.val + (1048576 * i.val + (1024 * k.val + (128 * s.val + l.val)))) := Finset.sum_comm
    _ = ∑ i : Fin 16, ∑ s : Fin 8, ∑ k : Fin 1024, ∑ l : Fin 128,
          h (16777216 * c.val + (1048576 * i.val + (1024 * k.val + (128 * s.val + l.val)))) :=
        Finset.sum_congr rfl fun i _ => Finset.sum_congr rfl fun s _ => Finset.sum_comm
    _ = ∑ i : Fin 16, ∑ k : Fin 1024, ∑ s : Fin 8, ∑ l : Fin 128,
          h (16777216 * c.val + (1048576 * i.val + (1024 * k.val + (128 * s.val + l.val)))) :=
        Finset.sum_congr rfl fun i _ => Finset.sum_comm

end Cert.SumLaw
-- ==== Proof.Spec.lean ====
/-
  The function both programs compute, on the extended reals: the mean of the squared differences of two vectors of
  2^25 entries,  (Σ_j (x0_j − x1_j)·(x0_j − x1_j)) · 2^-25.

  The kernel views the flat vectors as [262144, 128] matrices (flat position n = R·128 + l), walks 32 blocks of 8192
  rows, and folds block b into an [8, 128] accumulator: entry (s, l) receives the squared differences at rows
  b·8192 + 8k + s, k < 1024 (`blockSum`).  The accumulator is reset at blocks 0 and 16 and copied out after blocks
  15 and 31, so row r = 8c + s of the [16, 128] result holds the sum over the 16 blocks of half c (`rowAcc`); the
  result's 2048 entries are then added up and scaled.  `total_eq` says that these 2048 partial sums add up to the
  plain sum over all 2^25 positions, and `scale_eq` that multiplying by the float 2^-25 is dividing by the float 2^25.
-/
import proofs.«148963_j386547057265_2_alg».proof.Proof.SumLaw
import Idealize.ShloMosaic.PureOps.Ideal
import Idealize.ShloMosaic.PureOps.Ideal.Laws
import Idealize.ShloMosaic.Lib.ValueIdx

noncomputable section

namespace Cert.MeanSq

open Idealize.ShloMosaic Idealize.ShloMosaic.ValueIdx
open scoped BigOperators

/-- The entry at flat position `n` of a vector of 2^25 extended reals (0 beyond the end, which no sum below reaches). -/
def rd (x : (⟨1, ![33554432]⟩ : Shape).Idx → EReal) (n : ℕ) : EReal :=
  if h : n < 33554432 then x (ix1 ⟨n, h⟩) else 0

theorem rd_of_lt (x : (⟨1, ![33554432]⟩ : Shape).Idx → EReal) (n : ℕ) (h : n < 33554432) : rd x n = x (ix1 ⟨n, h⟩) :=
  dif_pos h

/-- The squared difference at flat position `n`. -/
def sq (x0 x1 : (⟨1, ![33554432]⟩ : Shape).Idx → EReal) (n : ℕ) : EReal :=
  (rd x0 n - rd x1 n) * (rd x0 n - rd x1 n)

/-- What block `b` (rows b·8192 … b·8192 + 8191) adds to accumulator entry (s, l): its rows 8k + s, k < 1024. -/
def blockSum (x0 x1 : (⟨1, ![33554432]⟩ : Shape).Idx → EReal) (b s l : ℕ) : EReal :=
  ∑ k : Fin 1024, sq x0 x1 ((b * 8192 + (8 * k.val + s)) * 128 + l)

/-- Entry (r, l) of the kernel's [16, 128] result: the 16 blocks of half r / 8, at sublane r % 8. -/
def rowAcc (x0 x1 : (⟨1, ![33554432]⟩ : Shape).Idx → EReal) (r l : ℕ) : EReal :=
  ∑ i : Fin 16, blockSum x0 x1 (r / 8 * 16 + i.val) (r % 8) l

/-- The [16, 128] result as an array. -/
def acc (x0 x1 : (⟨1, ![33554432]⟩ : Shape).Idx → EReal) : (⟨2, ![16, 128]⟩ : Shape).Idx → EReal :=
  fun j => rowAcc x0 x1 (j 0).val (j 1).val

/-- A rank-1 index set is its one coordinate range. -/
def idxEquiv1 {n : ℕ} : (⟨1, ![n]⟩ : Shape).Idx ≃ Fin n where
  toFun j := j 0
  invFun := ix1
  left_inv j := (eq_ix1 j).symm
  right_inv _ := rfl

/-- The 2048 partial sums add up to the sum over all 2^25 positions. -/
theorem total_eq (x0 x1 : (⟨1, ![33554432]⟩ : Shape).Idx → EReal) :
    ∑ j : (⟨2, ![16, 128]⟩ : Shape).Idx, acc x0 x1 j
      = ∑ j : (⟨1, ![33554432]⟩ : Shape).Idx, (x0 j - x1 j) * (x0 j - x1 j) := by
  rw [sum_idx2]
  rw [← Equiv.sum_comp (idxEquiv1 (n := 33554432)).symm (fun j => (x0 j - x1 j) * (x0 j - x1 j))]
  have e : ∀ n : Fin 33554432, (x0 ((idxEquiv1 (n := 33554432)).symm n) - x1 ((idxEquiv1 (n := 33554432)).symm n))
      * (x0 ((idxEquiv1 (n := 33554432)).symm n) - x1 ((idxEquiv1 (n := 33554432)).symm n)) = sq x0 x1 n.val := by
    intro n
    unfold sq
    rw [rd_of_lt x0 n.val n.isLt, rd_of_lt x1 n.val n.isLt]
    rfl
  rw [Finset.sum_congr rfl fun n _ => e n]
  exact Cert.SumLaw.regroup (sq x0 x1)

/-- The float 2^25, the reference's divisor. -/
theorem ofBits_two_pow_25 : Ideal.ofBits .f32 0x4C000000#32 = ((33554432 : ℝ) : EReal) := by
  simp [Ideal.ofBits, Ideal.ieee, -EReal.coe_mul]; norm_num

/-- The float 2^-25, the kernel's scale. -/
theorem ofBits_two_pow_neg_25 : Ideal.ofBits .f32 0x33000000#32 = ((1 / 33554432 : ℝ) : EReal) := by
  simp [Ideal.ofBits, Ideal.ieee, -EReal.coe_mul]; norm_num

/-- Multiplying by the float 2^-25 is dividing by the float 2^25, on every extended real. -/
theorem scale_eq (X : EReal) :
    X * Ideal.ofBits .f32 0x33000000#32 = Ideal.div X (Ideal.ofBits .f32 0x4C000000#32) := by
  rw [ofBits_two_pow_25, ofBits_two_pow_neg_25, Ideal.div_coe (by norm_num : (33554432 : ℝ) ≠ 0)]

end Cert.MeanSq

end
-- ==== Proof.Blocks.lean ====
/-
  What an input window's block holds.  Before the kernel runs, each flat argument of 2^25 entries is viewed as a
  [262144, 128] matrix (same row-major position: entry (R, l) is flat position R·128 + l).  The kernel's 32 grid points
  (c, i), numbered t = 16c + i, fetch row block t of each matrix: 8192 rows starting at row 8192·t.  So entry (p, l) of
  the block at point t is the argument at flat position (8192·t + p)·128 + l.
-/
import proofs.«148963_j386547057265_2_alg».proof.Proof.Gen.KernelIdeal.Frame
import proofs.«148963_j386547057265_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Blocks

open Idealize.ShloMosaic Idealize.ShloMosaic.TcCoe Idealize.SL.Sem Idealize.ShloMosaic.Tactic Idealize.ShloMosaic.ValueIdx
open Cert.KernelIdeal Cert.KernelIdeal.Gen

variable (m : (ℓ : Loc nD τ sig) → Buf (Elt Ideal) ℓ)

/-- The array window 0 stages is the [262144, 128] view of argument 0. -/
theorem V_main_v0 (c : Dev nD) :
    (V m c main_v0 : S262144x128.Idx → EReal)
      = shapeCast S262144x128 (m ((c : Thread nD τ).loc main_arg0)) shapeCasts_S33554432_S262144x128 := by
  show StableHlo.after hostOps0 (fun b => m (c, b)) (Proc.devRef .tc main_v0) = _
  after_results
  rfl

/-- At grid point t window 0 holds row block t (and column block 0). -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (p, l) of window 0's block at point t is argument 0 at flat position (8192·t + p)·128 + l. -/
theorem iblk0_apply (c : Dev nD) (t : Fin cfg0.N) (p : Fin 8192) (l : Fin 128) :
    iblk m c 0 t (ix2 p l)
      = Cert.MeanSq.rd (m ((c : Thread nD τ).loc main_arg0)) ((t.val * 8192 + p.val) * 128 + l.val) := by
  have hN : t.val < 32 := lt_of_lt_of_eq t.isLt (show cfg0.N = 32 from N_0)
  have hp := p.isLt
  have hl := l.isLt
  rw [Cert.MeanSq.rd_of_lt _ _ (by omega)]
  unfold iblk
  rw [View.read_apply]
  show V m c main_v0 (((cfg0.win 0).blk t).view.emb (ix2 p l)) = _
  rw [V_main_v0]
  refine shapeCast_apply _ _ _ _ ?_
  show (S33554432.rowMajor (ix1 ⟨(t.val * 8192 + p.val) * 128 + l.val, by omega⟩)).val
    = (S262144x128.rowMajor (((cfg0.win 0).blk t).view.emb (ix2 p l))).val
  rw [Shape.rowMajor_val_one, Shape.rowMajor_val_two]
  show (t.val * 8192 + p.val) * 128 + l.val
    = (win0_0.index t 0 * 8192 + 1 * p.val) * 128 + (win0_0.index t 1 * 128 + 1 * l.val)
  rw [(index0 t).1, (index0 t).2]
  omega

/-- The array window 1 stages is the [262144, 128] view of argument 1. -/
theorem V_main_v1 (c : Dev nD) :
    (V m c main_v1 : S262144x128.Idx → EReal)
      = shapeCast S262144x128 (m ((c : Thread nD τ).loc main_arg1)) shapeCasts_S33554432_S262144x128 := by
  show StableHlo.after hostOps0 (fun b => m (c, b)) (Proc.devRef .tc main_v1) = _
  after_results
  rfl

/-- At grid point t window 1 holds row block t (and column block 0). -/
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (p, l) of window 1's block at point t is argument 1 at flat position (8192·t + p)·128 + l. -/
theorem iblk1_apply (c : Dev nD) (t : Fin cfg0.N) (p : Fin 8192) (l : Fin 128) :
    iblk m c 1 t (ix2 p l)
      = Cert.MeanSq.rd (m ((c : Thread nD τ).loc main_arg1)) ((t.val * 8192 + p.val) * 128 + l.val) := by
  have hN : t.val < 32 := lt_of_lt_of_eq t.isLt (show cfg0.N = 32 from N_0)
  have hp := p.isLt
  have hl := l.isLt
  rw [Cert.MeanSq.rd_of_lt _ _ (by omega)]
  unfold iblk
  rw [View.read_apply]
  show V m c main_v1 (((cfg0.win 1).blk t).view.emb (ix2 p l)) = _
  rw [V_main_v1]
  refine shapeCast_apply _ _ _ _ ?_
  show (S33554432.rowMajor (ix1 ⟨(t.val * 8192 + p.val) * 128 + l.val, by omega⟩)).val
    = (S262144x128.rowMajor (((cfg0.win 1).blk t).view.emb (ix2 p l))).val
  rw [Shape.rowMajor_val_one, Shape.rowMajor_val_two]
  show (t.val * 8192 + p.val) * 128 + l.val
    = (win0_1.index t 0 * 8192 + 1 * p.val) * 128 + (win0_1.index t 1 * 128 + 1 * l.val)
  rw [(index1 t).1, (index1 t).2]
  omega

end Cert.KernelIdeal.Blocks

end
-- ==== Proof.Accum.lean ====
/-
  The accumulator, point by point.  Number the grid points t = 16c + i.  After point t the [8, 128] accumulator holds,
  at (s, l), the block sums of the points of its half so far:
        Σ_{i' ≤ t mod 16} blockSum (16·⌊t/16⌋ + i') s l,
  by induction on t: at the first point of a half the reset makes it 0 + (this block's sums); at every later point
  it is what the point before left plus this block's sums.  At the last point of a half (t mod 16 = 15) the output
  block is a copy of the accumulator, that is, the sum over all 16 blocks of the half.
-/
import proofs.«148963_j386547057265_2_alg».proof.Proof.Pieces
import proofs.«148963_j386547057265_2_alg».proof.Proof.PointSum
import proofs.«148963_j386547057265_2_alg».proof.Proof.Blocks

noncomputable section

namespace Cert.KernelIdeal.Accum

open Idealize.ShloMosaic Idealize.ShloMosaic.TcCoe Idealize.SL.Sem Idealize.ShloMosaic.ValueIdx
open Cert.KernelIdeal Cert.KernelIdeal.Gen Cert.MeanSq
open scoped BigOperators

variable (m : (ℓ : Loc nD τ sig) → Buf (Elt Ideal) ℓ)

/-- The two flat arguments on core c. -/
abbrev X0 (c : Dev nD) : (⟨1, ![33554432]⟩ : Shape).Idx → EReal := m ((c : Thread nD τ).loc main_arg0)
abbrev X1 (c : Dev nD) : (⟨1, ![33554432]⟩ : Shape).Idx → EReal := m ((c : Thread nD τ).loc main_arg1)

/-- What the body stores at point t over an accumulator holding a: a plus block t's sums. -/
theorem point_sum (c : Dev nD) (t : Fin cfg0.N) (a : Vec Ideal S8x128 .f32) (s : Fin 8) (l : Fin 128) :
    k0_pay2 (F := Ideal) (iblk m c 0 t) (iblk m c 1 t) a (ix2 s l)
      = a (ix2 s l) + blockSum (X0 m c) (X1 m c) t.val s.val l.val := by
  refine (Point.pay2_apply (iblk m c 0 t) (iblk m c 1 t) a s l).trans ?_
  refine congrArg (fun z => a (ix2 s l) + z) ?_
  unfold blockSum
  refine Finset.sum_congr rfl fun k _ => ?_
  rw [Blocks.iblk0_apply m c t (Point.row k s) l, Blocks.iblk1_apply m c t (Point.row k s) l]
  rfl

/-- The accumulator after the first point of a half. -/
theorem snd_first (c : Dev nD) (t : Fin cfg0.N) (h0 : t.val % 16 = 0) :
    (outsAt0 m c t.val t.isLt).2 = k0_pay2 (F := Ideal) (iblk m c 0 t) (iblk m c 1 t) (k0_pay1 (F := Ideal)) := by
  have h1 : ¬t.val % 16 = 15 := by omega
  rw [outsAt0_A m c t h0 h1]
  exact Pieces.scratch_first (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)

/-- The accumulator after any later point, over what the point before left. -/
theorem snd_later (c : Dev nD) (t : Fin cfg0.N) (h0 : ¬t.val % 16 = 0) :
    (outsAt0 m c t.val t.isLt).2
      = k0_pay2 (F := Ideal) (iblk m c 0 t) (iblk m c 1 t)
          (outsAt0 m c (t.val - 1) (Nat.lt_of_le_of_lt (Nat.sub_le _ _) t.isLt)).2 := by
  by_cases h1 : t.val % 16 = 15
  · rw [outsAt0_C m c t h0 h1]
    exact Pieces.scratch_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t) _
  · rw [outsAt0_B m c t h0 h1]
    exact Pieces.scratch_middle (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (iblk m c 0 t) (iblk m c 1 t) _

/-- At the last point of a half the output block is the accumulator. -/
theorem fst_last (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  exact (Pieces.out_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t) _).trans
    (Pieces.scratch_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t) _).symm

/-- The accumulator after point n: the block sums of its half up to n. -/
theorem scratch_after (c : Dev nD) : ∀ (n : ℕ) (hn : n < cfg0.N) (s : Fin 8) (l : Fin 128),
    (outsAt0 m c n hn).2 (ix2 s l)
      = ∑ i ∈ Finset.range (n % 16 + 1), blockSum (X0 m c) (X1 m c) (n / 16 * 16 + i) s.val l.val := by
  intro n
  induction n with
  | zero =>
    intro hn s l
    have e := snd_first m c ⟨0, hn⟩ (Nat.zero_mod _)
    rw [show (outsAt0 m c 0 hn).2 = _ from e, point_sum m c ⟨0, hn⟩, Point.pay1_apply, zero_add]
    simp
  | succ n ih =>
    intro hn s l
    by_cases h0 : (n + 1) % 16 = 0
    · have e := snd_first m c ⟨n + 1, hn⟩ h0
      rw [show (outsAt0 m c (n + 1) hn).2 = _ from e, point_sum m c ⟨n + 1, hn⟩, Point.pay1_apply, zero_add, h0,
        Finset.sum_range_one]
      show blockSum (X0 m c) (X1 m c) (n + 1) s.val l.val = _
      rw [show (n + 1) / 16 * 16 + 0 = n + 1 by omega]
    · have e := snd_later m c ⟨n + 1, hn⟩ h0
      rw [show (outsAt0 m c (n + 1) hn).2 = _ from e, point_sum m c ⟨n + 1, hn⟩]
      show (outsAt0 m c n _).2 (ix2 s l) + blockSum (X0 m c) (X1 m c) (n + 1) s.val l.val = _
      rw [ih _ s l]
      have e1 : (n + 1) % 16 + 1 = (n % 16 + 1) + 1 := by omega
      have e2 : (n + 1) / 16 = n / 16 := by omega
      rw [e1, e2, Finset.sum_range_succ _ (n % 16 + 1)]
      rw [show n / 16 * 16 + (n % 16 + 1) = n + 1 by omega]

/-- The output block written back at the last point of a half: the sums of all 16 blocks of that half. -/
theorem out_at_last (c : Dev nD) (t : Fin cfg0.N) (h1 : t.val % 16 = 15) (s : Fin 8) (l : Fin 128) :
    (outsAt0 m c t.val t.isLt).1 (ix2 s l)
      = ∑ i : Fin 16, blockSum (X0 m c) (X1 m c) (t.val / 16 * 16 + i.val) s.val l.val := by
  rw [fst_last m c t h1, scratch_after m c t.val t.isLt s l, h1]
  exact Finset.sum_range fun i => blockSum (X0 m c) (X1 m c) (t.val / 16 * 16 + i) s.val l.val

end Cert.KernelIdeal.Accum

end
-- ==== Proof.MeanLaw.lean ====
/-
  The common value.  The reference computes  (0 + Σ_j (x0_j − x1_j)·(x0_j − x1_j)) / 2^25  over the flat range; the
  kernel computes  (0 + Σ_{(r,l)} acc(r, l)) · 2^-25  over its [16, 128] array of partial sums.  The partial sums add
  up to the flat sum, and the product with the float 2^-25 is the quotient by the float 2^25 on every extended real.
-/
import proofs.«148963_j386547057265_2_alg».proof.Proof.Spec

noncomputable section

namespace Cert.MeanSq

open Idealize.ShloMosaic
open scoped BigOperators

/-- The mean of the squared differences, as the reference spells it. -/
def meanSq (x0 x1 : (⟨1, ![33554432]⟩ : Shape).Idx → EReal) : EReal :=
  Ideal.div (Ideal.ofBits .f32 0x00000000#32 + ∑ j : (⟨1, ![33554432]⟩ : Shape).Idx, (x0 j - x1 j) * (x0 j - x1 j))
    (Ideal.ofBits .f32 0x4C000000#32)

/-- The kernel's spelling is the same number. -/
theorem kernel_form (x0 x1 : (⟨1, ![33554432]⟩ : Shape).Idx → EReal) :
    (Ideal.ofBits .f32 0x00000000#32 + ∑ j : (⟨2, ![16, 128]⟩ : Shape).Idx, acc x0 x1 j) * Ideal.ofBits .f32 0x33000000#32
      = meanSq x0 x1 := by
  unfold meanSq
  rw [total_eq, scale_eq]

end Cert.MeanSq

end
-- ==== Proof.Final.lean ====
/-
  From the grid's write-backs to the kernel's result.

  The [16, 128] output array is written back twice: after the last point of each half c (point 16c + 15), rows
  8c … 8c + 7, from the accumulator, so entry (r, l) ends holding the sum over the 16 blocks of half r / 8 at sublane
  r % 8 (`acc`); the two 8-row blocks cover the array.  After the kernel the host adds the 2048 entries to 0 and
  multiplies by the float 2^-25; by `kernel_form` that is the mean of the squared differences.  The arguments end
  unchanged.
-/
import proofs.«148963_j386547057265_2_alg».proof.Proof.Accum
import proofs.«148963_j386547057265_2_alg».proof.Proof.MeanLaw
import Idealize.ShloMosaic.Lib.Pipeline.Value
import Idealize.ShloMosaic.Lib.StableHlo.Run
import Idealize.ShloMosaic.Lib.Tactic

noncomputable section

namespace Cert.KernelIdeal.Final

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen Cert.MeanSq Cert.KernelIdeal.Accum
open scoped BigOperators

variable (m : (ℓ : Loc nD τ sig) → Buf (Elt Ideal) ℓ) (ρ : Dev nD → PrngReg)

/-- Where the output window's block sits at point t: row block ⌊t/16⌋, column block 0, of extents 8 × 128. -/
theorem geom2 : ∀ t : Fin cfg0.N, win0_2.index t (0 : Fin 2) = t.val / 16 ∧ win0_2.index t (1 : Fin 2) = 0
    ∧ win0_2.xsize (grid0.coords t) (0 : Fin 2) = 8 ∧ win0_2.xsize (grid0.coords t) (1 : Fin 2) = 128 :=
  (by decide +kernel : ∀ t : Fin grid0.N, win0_2.index t (0 : Fin 2) = t.val / 16 ∧ win0_2.index t (1 : Fin 2) = 0
    ∧ win0_2.xsize (grid0.coords t) (0 : Fin 2) = 8 ∧ win0_2.xsize (grid0.coords t) (1 : Fin 2) = 128)

/-- What the write-back at the last point of a half writes is that half's rows of `acc`. -/
theorem flushed_eq (c : Dev nD) (t : Fin cfg0.N) (hf : (cfg0.win 2).flush t = true) :
    (dats m 0 c).flushed 2 t = ((cfg0.win 2).blk t).view.read (Elt Ideal) (acc (X0 m c) (X1 m c)) := by
  have h1 : t.val % 16 = 15 := (flush0_2 t).mp hf
  have hN : t.val < 32 := lt_of_lt_of_eq t.isLt (show cfg0.N = 32 from N_0)
  show (cfg0.win 2).cut (grid0.coords t) ((dats m 0 c).after 2 t) = _
  rw [after0_2]
  funext y
  obtain ⟨s, l, rfl⟩ : ∃ (s : Fin 8) (l : Fin 128), y = ix2 s l := ⟨y 0, y 1, eq_ix2 y⟩
  rw [View.read_apply]
  show (outsAt0 m c t.val t.isLt).1 (ix2 s l) = acc (X0 m c) (X1 m c) (((cfg0.win 2).blk t).view.emb (ix2 s l))
  rw [Accum.out_at_last m c t h1 s l]
  unfold acc rowAcc
  show _ = ∑ i : Fin 16, blockSum (X0 m c) (X1 m c) ((win0_2.index t 0 * 8 + 1 * s.val) / 8 * 16 + i.val)
      ((win0_2.index t 0 * 8 + 1 * s.val) % 8) (win0_2.index t 1 * 128 + 1 * l.val)
  rw [(geom2 t).1, (geom2 t).2.1]
  have hs := s.isLt
  have ea : (t.val / 16 * 8 + 1 * s.val) / 8 = t.val / 16 := by omega
  have eb : (t.val / 16 * 8 + 1 * s.val) % 8 = s.val := by omega
  have ec : 0 * 128 + 1 * l.val = l.val := by omega
  rw [ea, eb, ec]

/-- Row r of the output array lies in the block written back at point 16·⌊r/8⌋ + 15. -/
theorem cover (c : Dev nD) : ∀ i : ((cfg0.win 2).arr.view.loc (c.tc : Thread nD τ)).2.ty.Idx,
    ∃ t : Fin cfg0.N, (cfg0.win 2).flush t = true ∧ i ∈ ((cfg0.win 2).blk t).view.set := by
  intro i
  have h0 : (i 0 : Nat) < 16 := (i 0).isLt
  have h1 : (i 1 : Nat) < 128 := (i 1).isLt
  have hT : 16 * ((i 0 : Nat) / 8) + 15 < cfg0.N := by rw [show cfg0.N = 32 from N_0]; omega
  refine ⟨⟨16 * ((i 0 : Nat) / 8) + 15, hT⟩, (flush0_2 _).mpr (by show (16 * ((i 0 : Nat) / 8) + 15) % 16 = 15; omega), ?_⟩
  show i ∈ ((View.whole main_v2).slice (win0_2.rect ⟨16 * ((i 0 : Nat) / 8) + 15, hT⟩)).set
  rw [View.set_slice_whole, Rect.mem_set_unit]
  intro a
  match a with
  | ⟨0, _⟩ =>
    show win0_2.index ⟨16 * ((i 0 : Nat) / 8) + 15, hT⟩ 0 * 8 ≤ (i 0 : Nat)
      ∧ (i 0 : Nat) < win0_2.index ⟨16 * ((i 0 : Nat) / 8) + 15, hT⟩ 0 * 8 + win0_2.xsize (grid0.coords ⟨16 * ((i 0 : Nat) / 8) + 15, hT⟩) 0
    rw [(geom2 ⟨16 * ((i 0 : Nat) / 8) + 15, hT⟩).1, (geom2 ⟨16 * ((i 0 : Nat) / 8) + 15, hT⟩).2.2.1]
    show (16 * ((i 0 : Nat) / 8) + 15) / 16 * 8 ≤ (i 0 : Nat) ∧ (i 0 : Nat) < (16 * ((i 0 : Nat) / 8) + 15) / 16 * 8 + 8
    omega
  | ⟨1, _⟩ =>
    show win0_2.index ⟨16 * ((i 0 : Nat) / 8) + 15, hT⟩ 1 * 128 ≤ (i 1 : Nat)
      ∧ (i 1 : Nat) < win0_2.index ⟨16 * ((i 0 : Nat) / 8) + 15, hT⟩ 1 * 128 + win0_2.xsize (grid0.coords ⟨16 * ((i 0 : Nat) / 8) + 15, hT⟩) 1
    rw [(geom2 ⟨16 * ((i 0 : Nat) / 8) + 15, hT⟩).2.1, (geom2 ⟨16 * ((i 0 : Nat) / 8) + 15, hT⟩).2.2.2]
    omega

/-- So the output array ends holding `acc`. -/
theorem final (c : Dev nD) : (dats m 0 c).arrAt 2 cfg0.N = acc (X0 m c) (X1 m c) :=
  (dats m 0 c).arrAt_eq_of_cover 2 (acc (X0 m c) (X1 m c)) (flushed_eq m c) (cover c)

/-- The host's last lines: the output array's entries added to 0, times the float 2^-25. -/
theorem tail_v4 (c : Dev nD) :
    Pipeline.afterTail₀ cfgs (dats m) 0 (V0 m) [hostOps1] c main_v4
      = mulf (Host.reduceAdd (F := Ideal) (acc (X0 m c) (X1 m c)) (constant (F := Ideal) S_ .f32 0x00000000#32)
          reducesTo_S16x128_S_d0_1 h_S_) (constant (F := Ideal) S_ .f32 0x33000000#32) := by
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N)
      (Proc.devRef .tc main_v2) = acc (X0 m c) (X1 m c) :=
    (Pipeline.withArrays_arr spec0 launch0.win.arr_inj c _ _ 2).trans (final m c)
  rw [e]

/-- That scalar is the mean of the squared differences. -/
theorem tail_value (c : Dev nD) :
    (mulf (Host.reduceAdd (F := Ideal) (acc (X0 m c) (X1 m c)) (constant (F := Ideal) S_ .f32 0x00000000#32)
          reducesTo_S16x128_S_d0_1 h_S_) (constant (F := Ideal) S_ .f32 0x33000000#32) : S_.Idx → EReal)
      = fun _ => meanSq (X0 m c) (X1 m c) := by
  funext i
  refine Eq.trans ?_ (kernel_form (X0 m c) (X1 m c))
  show Ideal.hostReduceAdd reducesTo_S16x128_S_d0_1 (acc (X0 m c) (X1 m c)) (Ideal.ofBits .f32 0x00000000#32) i
      * Ideal.ofBits .f32 0x33000000#32 = _
  rw [Ideal.hostReduceAdd_total reducesTo_S16x128_S_d0_1 (fun b => b.elim0)]

/-- The kernel's run, read: the result at the mean of the squared differences of the arguments, the arguments unchanged. -/
theorem run : θ_run defs (onTc (τ := τ) (main (F := Ideal))) ⟨m, fun _ => 0, ρ⟩ fun r => ∀ c : Dev nD,
      r.2.mem ((c.tc : Thread nD τ).loc main_v4) = (fun _ => meanSq (X0 m c) (X1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(((h c).2 main_v4 (Pipeline.mem_restRefs_of main_v4 (by decide) (by decide))).trans (tail_v4 m c)).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.RefValue.lean ====
/-
  The reference, read at its one result entry on the extended reals: the subtraction and the product entry by entry,
  the host's sum over the whole flat range from the initial 0, and the quotient by the float 2^25.
-/
import proofs.«148963_j386547057265_2_alg».proof.Proof.Gen.ReferenceIdeal.Read
import proofs.«148963_j386547057265_2_alg».proof.Proof.MeanLaw

noncomputable section

namespace Cert.ReferenceIdeal.RefValue

open Idealize.ShloMosaic Cert.ReferenceIdeal Cert.ReferenceIdeal.Read Cert.MeanSq
open scoped BigOperators

/-- The reference's result is the mean of the squared differences. -/
theorem ref_eq (x0 x1 : (⟨S33554432, .f32⟩ : BufTy).Contents (Elt Ideal)) :
    val_main_v3 (F := Ideal) x0 x1 = fun _ => meanSq x0 x1 := by
  funext i
  rw [val_main_v3_apply, val_main_v2_apply, val_main_cst_0_apply, val_main_cst_apply]
  simp only [val_main_v1_apply, val_main_v0_apply, Ideal.hostDivf_def, Ideal.subf_def, Ideal.mulf_def, Ideal.ofBits_def]
  rfl

end Cert.ReferenceIdeal.RefValue

end
-- ==== Proof.lean ====
/-
  Mean squared error of two vectors of 2^25 floats: a two-core accumulating kernel against the plain mean.

  On the extended reals both programs compute  (Σ_j (x0_j − x1_j)·(x0_j − x1_j)) scaled by 2^-25.
  The reference subtracts, squares, sums the whole flat range from 0 and divides by the float 2^25.  The kernel views
  the vectors as [262144, 128] matrices, walks 32 row blocks of 8192 rows on a 2 × 16 grid, folds each block's
  squared differences into an [8, 128] accumulator (entry (s, l) gets rows 8k + s of the block), resets the
  accumulator at the start of each half and copies it to rows 8c … 8c + 7 of a [16, 128] result at the end of half c;
  the host then adds the 2048 entries to 0 and multiplies by the float 2^-25.

  The two sums run over the same 2^25 terms, only grouped differently, and addition of extended reals is commutative
  and associative, so they agree for every input (no finiteness is needed); multiplying by 2^-25 and dividing by
  2^25 agree on every extended real.  The modules: SumLaw (regrouping the sum), Spec and MeanLaw (the common value),
  PointSum (one grid point's arithmetic), Pieces (what one run of the body stores), Blocks (what an input block holds),
  Accum (the accumulator point by point), Final (write-backs, the host's last lines, the kernel's run), RefValue (the
  reference's result).  The idealization rewrote nothing, so that conjunct is trivial; the three frames are the
  programs' runs with the values forgotten.
-/
import proofs.«148963_j386547057265_2_alg».proof.Defs
import proofs.«148963_j386547057265_2_alg».proof.Proof.Gen.Kernel
import proofs.«148963_j386547057265_2_alg».proof.Proof.Gen.Kernel.Skeleton
import proofs.«148963_j386547057265_2_alg».proof.Proof.Gen.Kernel.Launch
import proofs.«148963_j386547057265_2_alg».proof.Proof.Gen.Kernel.Points
import proofs.«148963_j386547057265_2_alg».proof.Proof.Gen.Kernel.Frame
import proofs.«148963_j386547057265_2_alg».proof.Proof.Gen.KernelIdeal
import proofs.«148963_j386547057265_2_alg».proof.Proof.Gen.KernelIdeal.Skeleton
import proofs.«148963_j386547057265_2_alg».proof.Proof.Gen.KernelIdeal.Launch
import proofs.«148963_j386547057265_2_alg».proof.Proof.Gen.KernelIdeal.Points
import proofs.«148963_j386547057265_2_alg».proof.Proof.Gen.KernelIdeal.Frame
import proofs.«148963_j386547057265_2_alg».proof.Proof.Gen.ReferenceIdeal
import proofs.«148963_j386547057265_2_alg».proof.Proof.Gen.ReferenceIdeal.Run
import proofs.«148963_j386547057265_2_alg».proof.Proof.Gen.ReferenceIdeal.Read
import proofs.«148963_j386547057265_2_alg».proof.Proof.Gen.Pre_finite_inputs
import proofs.«148963_j386547057265_2_alg».proof.Proof.Final
import proofs.«148963_j386547057265_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in the idealization. -/
theorem preserves : Cert.preserves_Kernel_KernelIdeal := trivial

/-- From memories agreeing on the arguments both idealized programs end with the mean of the squared differences of
    those arguments as their result. -/
theorem algebraic : Cert.algebraic_KernelIdeal_ReferenceIdeal := by
  intro m ρ m' ρ' _ hagree
  refine ⟨fun c => fun _ => Cert.MeanSq.meanSq (Cert.KernelIdeal.Accum.X0 m c) (Cert.KernelIdeal.Accum.X1 m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
